-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x512 : Shape := ⟨2, ![256, 512]⟩
abbrev S64x256 : Shape := ⟨2, ![64, 256]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x512 : S_.BroadcastsInDim S256x512 (![] : Fin 0 → Fin S256x512.rank)
  reducesTo_S256x512_S_d0_1 : S256x512.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x256 .f32) (main_arg1 : FVec F S10000x10000 .f32) (main_arg2 : FVec F S256x512 .f32) (main_arg3 : FVec F S64x256 .f32) (main_arg4 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x512 : Shape := ⟨2, ![256, 512]⟩
abbrev S64x256 : Shape := ⟨2, ![64, 256]⟩
abbrev S64 : Shape := ⟨1, ![64]⟩
abbrev S256x256 : Shape := ⟨2, ![256, 256]⟩
abbrev S256x64 : Shape := ⟨2, ![256, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400 : Shape := ⟨1, ![400]⟩
abbrev S400x1 : Shape := ⟨2, ![400, 1]⟩
abbrev S400x256 : Shape := ⟨2, ![400, 256]⟩

abbrev nBuf : Space → Nat
  | .hbm => 12
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S64x256, .f32⟩
  | .hbm, ⟨4, _⟩ => ⟨S64, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x64, .f32⟩
  | .hbm, ⟨10, _⟩ => ⟨S1x64, .f32⟩
  | .hbm, ⟨11, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S256x256, .f32⟩
  | .local _ .vmem, ⟨5, _⟩ => ⟨S256x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c0_5 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S256x512_S256x256_0_0 : S256x512.Slices ![0, 0] S256x256
  transposes_S256x256_S256x256_1_0 : S256x256.Transposes [1, 0] S256x256
  slices_S256x512_S256x256_0_256 : S256x512.Slices ![0, 256] S256x256
  transposes_S64x256_S256x64_1_0 : S64x256.Transposes [1, 0] S256x64
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S10000x256_S10000x256_0_0 : ∀ a, (![0, 0] : Fin 2 → Nat) a + S10000x256.size a ≤ S10000x256.size a
  h_S10000x256 : 0 < S10000x256.numel
  broadcasts_S400x1_S400x256 : S400x1.Broadcasts S400x256
  h_S400x256 : 0 < S400x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S400x256_S256x64_S400x64_1_0_0_1_n_n_wf : DotDims.WF S400x256 S256x64 S400x64 [1] [0] [0] [1] [] []
  hrank0 : 0 < grid0.rank
  k0_off1_inb : ∀ i : grid0.Coords, ∀ a, (k0_off1 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x64_S400x64_1_0_0_1_n_n : DotDims S400x256 S256x64 S400x64 where
  lhsContracting := [1]
  rhsContracting := [0]
  lhsNonContracting := [0]
  rhsNonContracting := [1]
  lhsBatch := []
  rhsBatch := []
  wf := dot_S400x256_S256x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x512 : Shape := ⟨2, ![256, 512]⟩
abbrev S64x256 : Shape := ⟨2, ![64, 256]⟩
abbrev S64 : Shape := ⟨1, ![64]⟩
abbrev S_ : Shape := ⟨0, ![]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩
abbrev S256x64 : Shape := ⟨2, ![256, 64]⟩
abbrev S10000x64 : Shape := ⟨2, ![10000, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S64x256, .f32⟩
  | .hbm, ⟨4, _⟩ => ⟨S64, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x256, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S10000x256, .f32⟩
  | .hbm, ⟨13, _⟩ => ⟨S10000x256, .f32⟩
  | .hbm, ⟨14, _⟩ => ⟨S10000x512, .f32⟩
  | .hbm, ⟨15, _⟩ => ⟨S512x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | .hbm, ⟨20, _⟩ => ⟨S256x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  bcast_S_S10000x256 : S_.BroadcastsInDim S10000x256 (![] : Fin 0 → Fin S10000x256.rank)
  transposes_S64x256_S256x64_1_0 : S64x256.Transposes [1, 0] S256x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x10000_S10000x256_S10000x256_1_0_0_1_n_n_wf : DotDims.WF S10000x10000 S10000x256 S10000x256 [1] [0] [0] [1] [] []
  dot_S10000x512_S512x256_S10000x256_1_0_0_1_n_n_wf : DotDims.WF S10000x512 S512x256 S10000x256 [1] [0] [0] [1] [] []
  dot_S10000x256_S256x64_S10000x64_1_0_0_1_n_n_wf : DotDims.WF S10000x256 S256x64 S10000x64 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

class Facts : Prop extends Facts₀ where

variable [Facts]
-- ==== Proof.SageSpec.lean ====
/-
  One GraphSAGE layer followed by a linear classifier, as ONE function of its five argument arrays on the extended reals.

  For a node `p` of the 10000: its degree is the row sum of the dense adjacency matrix, `deg p = Σ_k adj(p, k)`; feature `j`
  of its aggregated neighbourhood is `neigh(p, j) = (Σ_k adj(p, k) · x(k, j)) / (deg p + 1)`; hidden unit `o` applies the
  256 x 512 projection to the node's own 256 features followed by its 256 aggregated ones,
  `hidden(p, o) = max(Σ_j x(p, j) · Ws(o, j) + Σ_j neigh(p, j) · Ws(o, 256 + j), 0)`; and class `c` is
  `Σ_o hidden(p, o) · Wm(c, o) + b(c)`.

  Written with the projection's 512 inputs as two halves of 256.  A program that first joins the node's features and its
  aggregate into one row of 512 and contracts that row with the projection computes the same number: a sum over 512
  positions is the sum over the first 256 plus the sum over the last 256 (`sum_halves`), which holds in any additive
  commutative monoid, so also on the extended reals where entries may be infinite.
-/
import Idealize.ShloMosaic.Lib.ValueIdx
import Idealize.ShloMosaic.PureOps.Ideal.Laws

noncomputable section

namespace Cert.Sage

open Idealize.ShloMosaic Idealize.ShloMosaic.ValueIdx

/-- Position `j` of the first half of the projection's 512 inputs. -/
abbrev lo (j : Fin 256) : Fin 512 := ⟨j.val, by have := j.isLt; omega⟩
/-- Position `256 + j`: entry `j` of the second half. -/
abbrev hi (j : Fin 256) : Fin 512 := ⟨256 + j.val, by have := j.isLt; omega⟩

/-- A sum over 512 positions is the sum over the first 256 plus the sum over the last 256. -/
theorem sum_halves {M : Type*} [AddCommMonoid M] (f : Fin 512 → M) :
    ∑ k : Fin 512, f k = (∑ j : Fin 256, f (lo j)) + ∑ j : Fin 256, f (hi j) := by
  exact Fin.sum_univ_add (a := 256) (b := 256) f

/-- The float `1.0`. -/
abbrev one : EReal := Ideal.ofBits .f32 0x3F800000#32
/-- The float `0.0`. -/
abbrev zero : EReal := Ideal.ofBits .f32 0x00000000#32

variable (x : (⟨2, ![10000, 256]⟩ : Shape).Idx → EReal) (adj : (⟨2, ![10000, 10000]⟩ : Shape).Idx → EReal)
  (ws : (⟨2, ![256, 512]⟩ : Shape).Idx → EReal) (wm : (⟨2, ![64, 256]⟩ : Shape).Idx → EReal)
  (b : (⟨1, ![64]⟩ : Shape).Idx → EReal)

/-- A node's degree plus one. -/
def degree1 (p : Fin 10000) : EReal := (∑ k : Fin 10000, adj (ix2 p k)) + one

/-- Feature `j` of node `p`'s aggregated neighbourhood. -/
def neigh (p : Fin 10000) (j : Fin 256) : EReal :=
  Ideal.div (∑ k : Fin 10000, adj (ix2 p k) * x (ix2 k j)) (degree1 adj p)

/-- Hidden unit `o` of node `p`. -/
def hidden (p : Fin 10000) (o : Fin 256) : EReal :=
  max ((∑ j : Fin 256, x (ix2 p j) * ws (ix2 o (lo j))) + ∑ j : Fin 256, neigh x adj p j * ws (ix2 o (hi j))) zero

/-- Class `c` of node `p`. -/
def logit (p : Fin 10000) (c : Fin 64) : EReal :=
  (∑ o : Fin 256, hidden x adj ws p o * wm (ix2 c o)) + b (ix1 c)

/-- The whole result array. -/
def sage : (⟨2, ![10000, 64]⟩ : Shape).Idx → EReal := fun i => logit x adj ws wm b (i 0) (i 1)

theorem sage_apply (p : Fin 10000) (c : Fin 64) : sage x adj ws wm b (ix2 p c) = logit x adj ws wm b p c := rfl

end Cert.Sage

end
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.BodyValue.lean ====
/-
  What the kernel body stores, read at an entry.

  At a grid point the body holds a block of 400 rows of the adjacency matrix, the whole feature matrix, the 400 rows of
  the feature matrix that belong to the same nodes, the two transposed halves of the projection matrix, the transposed
  classifier matrix and the bias row.  On the extended reals its one store is, at `(r, c)`: the row sum of the adjacency
  block plus `1.0`; the product of the adjacency block and the features divided by that, entry by entry; the two
  products with the projection halves added; the maximum with `0.0`; the product with the classifier matrix; plus the bias
  (`payload_at`).  Every matrix product is a plain sum over the contracted position, every repeated column or row is read
  at the coordinate it keeps.

  When the loaded blocks hold the entries of the five argument arrays that the block of rows `400·T + r` names
  (`hypotheses h0 … h5`), that entry is `Cert.Sage.sage` at `(400·T + r, c)` (`payload_eq_sage`).
-/
import proofs.«178826_g3221225472129_cont_8to1_b_1778_23_alg».proof.Proof.Gen.KernelIdeal.Skeleton
import proofs.«178826_g3221225472129_cont_8to1_b_1778_23_alg».proof.Proof.SageSpec
import proofs.«178826_g3221225472129_cont_8to1_b_1778_23_alg».proof.Proof.LibPlainDot
import proofs.«178826_g3221225472129_cont_8to1_b_1778_23_alg».proof.Proof.LibColumnLayout
import proofs.«178826_g3221225472129_cont_8to1_b_1778_23_alg».proof.Proof.LibReduceLayout
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open Cert.Sage Cert.Lib

/-- Row `r` of the block of 400 rows that grid point `T` works on. -/
abbrev row (T : Fin 25) (r : Fin 400) : Fin 10000 := ⟨T.val * 400 + r.val, by have := T.isLt; have := r.isLt; omega⟩

variable (v0 : Vec Ideal S400x10000 .f32) (v3 : Vec Ideal S10000x256 .f32) (v11 : Vec Ideal S400x256 .f32)
  (v12 v15 : Vec Ideal S256x256 .f32) (v21 : Vec Ideal S256x64 .f32) (v24 : Vec Ideal S1x64 .f32)

/-- The body's store at `(r, c)`. -/
theorem payload_at (r : Fin 400) (c : Fin 64) :
    k0_pay1 (F := Ideal) v0 v3 v11 v12 v15 v21 v24 (ix2 r c)
      = (∑ o : Fin 256, max ((∑ j : Fin 256, v11 (ix2 r j) * v12 (ix2 j o))
            + ∑ j : Fin 256, Ideal.div (∑ k : Fin 10000, v0 (ix2 r k) * v3 (ix2 k j)) ((∑ k : Fin 10000, v0 (ix2 r k)) + one)
                * v15 (ix2 j o)) zero * v21 (ix2 o c))
        + v24 (ix2 (0 : Fin 1) c) := by
  unfold k0_pay1
  simp only [shapeCast_self]
  rw [addf_apply, PlainDot.matmul_zero_apply _ rfl rfl rfl rfl rfl rfl rfl rfl, broadcastTo_1b_ab_apply]
  congr 1
  refine Finset.sum_congr rfl fun o _ => ?_
  congr 1
  rw [maximumf_apply, addf_apply, PlainDot.matmul_zero_apply _ rfl rfl rfl rfl rfl rfl rfl rfl,
    PlainDot.matmul_zero_apply _ rfl rfl rfl rfl rfl rfl rfl rfl, broadcast_apply]
  congr 2
  refine Finset.sum_congr rfl fun j _ => ?_
  congr 1
  rw [divf_apply, PlainDot.matmul_zero_apply _ rfl rfl rfl rfl rfl rfl rfl rfl, ColumnLayout.broadcastTo_a1_ab_apply,
    addf_apply, ColumnLayout.shapeCast_a_a1_apply]
  exact congrArg (fun z => Ideal.div _ (z + one)) (ReduceLayout.sum_axis1_apply v0 _ _ _ _ r)

/-- With the loaded blocks holding the argument arrays' entries of the rows `400·T + r`, the store at `(r, c)` is the layer's
    result at `(400·T + r, c)`. -/
theorem payload_eq_sage (x : (⟨2, ![10000, 256]⟩ : Shape).Idx → EReal) (adj : (⟨2, ![10000, 10000]⟩ : Shape).Idx → EReal)
    (ws : (⟨2, ![256, 512]⟩ : Shape).Idx → EReal) (wm : (⟨2, ![64, 256]⟩ : Shape).Idx → EReal)
    (b : (⟨1, ![64]⟩ : Shape).Idx → EReal) (T : Fin 25)
    (h0 : ∀ (r : Fin 400) (k : Fin 10000), v0 (ix2 r k) = adj (ix2 (row T r) k))
    (h3 : ∀ (k : Fin 10000) (j : Fin 256), v3 (ix2 k j) = x (ix2 k j))
    (h11 : ∀ (r : Fin 400) (j : Fin 256), v11 (ix2 r j) = x (ix2 (row T r) j))
    (h12 : ∀ j o : Fin 256, v12 (ix2 j o) = ws (ix2 o (lo j)))
    (h15 : ∀ j o : Fin 256, v15 (ix2 j o) = ws (ix2 o (hi j)))
    (h21 : ∀ (o : Fin 256) (c : Fin 64), v21 (ix2 o c) = wm (ix2 c o))
    (h24 : ∀ c : Fin 64, v24 (ix2 (0 : Fin 1) c) = b (ix1 c))
    (r : Fin 400) (c : Fin 64) :
    k0_pay1 (F := Ideal) v0 v3 v11 v12 v15 v21 v24 (ix2 r c) = sage x adj ws wm b (ix2 (row T r) c) := by
  rw [payload_at, sage_apply]
  simp only [h0, h3, h11, h12, h15, h21, h24]
  rfl

end Cert.KernelIdeal.Body

end
-- ==== Proof.BlockRun.lean ====
/-
  From what one grid point writes to the whole result array.

  The grid has 25 points; point `t` works on the rows `400·t … 400·t + 399` of the 10000 nodes.  It is handed block `t` of
  the adjacency matrix (400 whole rows), the whole feature matrix, and four small arrays the host operations before the
  launch prepared from the arguments: the projection matrix's left and right halves, each cut out and transposed
  (entry `(j, o)` is the projection at `(o, j)`, resp. at `(o, 256 + j)`), the classifier matrix transposed, and the bias
  as a row.  Inside, the body also reads rows `400·t …` of the feature matrix through a rectangle whose row offset is
  computed from the point: `400·t`, the same rows as the adjacency block's and the output block's.

  So every loaded block holds the entries of the argument arrays that `Cert.KernelIdeal.Body.payload_eq_sage` asks
  for, and what point `t` writes back is block `t` of `Cert.Sage.sage` of the arguments (`flushed_eq`).  The 25 blocks of
  400 rows tile the 10000 rows (row `i` is in block `i / 400`), so after the run the result array is `sage` of the
  arguments (`final`), and the kernel's run is restated with that array named (`run`).
-/
import proofs.«178826_g3221225472129_cont_8to1_b_1778_23_alg».proof.Proof.Gen.KernelIdeal.Value
import proofs.«178826_g3221225472129_cont_8to1_b_1778_23_alg».proof.Proof.BodyValue
import Idealize.ShloMosaic.Lib.StableHlo.Run

set_option maxRecDepth 16384

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Idealize.ShloMosaic.StableHlo Idealize.ShloMosaic.Tactic
open Idealize.ShloMosaic.Pipeline (Dat)
open Cert.Sage

/-- The two zero offsets of a full-extent rectangle. -/
theorem hz : (![0, 0] : Fin 2 → Nat) = fun _ => 0 := funext fun a => by fin_cases a <;> rfl

/-! ## What the body leaves in the output's staging buffer -/

section Piece
variable {F : FTy → Type} [FloatOps F]

/-- The body's one store covers the output block, so what it leaves is its payload of the loaded values: the six staged
    blocks read whole, and the feature rows read through the rectangle at the point's row offset. -/
theorem out_A (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S400x64 .f32) (harg7 : arg7.IsWhole)
    (x0 : Vec F S400x10000 .f32) (x1 : Vec F S10000x256 .f32) (x2 : Vec F S256x256 .f32) (x3 : Vec F S256x256 .f32) (x4 : Vec F S256x64 .f32) (x5 : Vec F S1x64 .f32) :
    out0_A_6 c i arg1 harg1 arg2 harg2 arg3 harg3 arg4 harg4 arg5 harg5 arg6 harg6 arg7 harg7 x0 x1 x2 x3 x4 x5
      = k0_pay1 x0 x1 (View.ld x1 (Rect.unit (s := S10000x256) (k0_off1 i) S400x256.size (k0_off1_inb i))) x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  rw [View.canon_unit_zero hz]
  simp only [View.readAt_eq_ld, harg1.read_unread, harg2.read_unread, harg3.read_unread, harg4.read_unread, harg5.read_unread,
    harg6.read_unread, View.ld_unit_zero (S := S400x10000) hz, View.ld_unit_zero (S := S10000x256) hz,
    View.ld_unit_zero (S := S256x256) hz, View.ld_unit_zero (S := S256x64) hz, View.ld_unit_zero (S := S1x64) hz]

end Piece

variable (m : (ℓ : Loc nD τ sig) → Buf (Elt Ideal) ℓ) (ρ : Dev nD → PrngReg)

/-! ## The arrays the host operations prepare -/

/-- The left half of the projection matrix, transposed. -/
theorem V_w1 (c : Dev nD) : V m c main_call0_v1 = transpose S256x256 [1, 0] (extractStridedSlice S256x256 ![0, 0] (m ((c : Thread nD τ).loc main_arg2)) slices_S256x512_S256x256_0_0) transposes_S256x256_S256x256_1_0 := by
  dsimp only [Gen.V, Gen.hostOps0]
  after_results
  rfl

/-- The right half of the projection matrix, transposed. -/
theorem V_w2 (c : Dev nD) : V m c main_call0_v3 = transpose S256x256 [1, 0] (extractStridedSlice S256x256 ![0, 256] (m ((c : Thread nD τ).loc main_arg2)) slices_S256x512_S256x256_0_256) transposes_S256x256_S256x256_1_0 := by
  dsimp only [Gen.V, Gen.hostOps0]
  after_results
  rfl

/-- The classifier matrix, transposed. -/
theorem V_wm (c : Dev nD) : V m c main_call0_v4 = transpose S256x64 [1, 0] (m ((c : Thread nD τ).loc main_arg3)) transposes_S64x256_S256x64_1_0 := by
  dsimp only [Gen.V, Gen.hostOps0]
  after_results
  rfl

/-- The bias as a row. -/
theorem V_b (c : Dev nD) : V m c main_call0_v5 = shapeCast S1x64 (m ((c : Thread nD τ).loc main_arg4)) shapeCasts_S64_S1x64 := by
  dsimp only [Gen.V, Gen.hostOps0]
  after_results
  rfl

/-! ## Where each block sits -/

theorem lt25 (t : Fin cfg0.N) : t.val < 25 := t.isLt

/-- The block indices of the seven windows and the body's row offset, decided over the 25 points: the adjacency block,
    the output block and the feature rows the body reads all start at row `400·t`; every other block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ k0_off1 (grid0.coords t) (0 : Fin 2) = t.val * 400 ∧ k0_off1 (grid0.coords t) (1 : Fin 2) = 0 :=
  (by decide +kernel : ∀ t : Fin grid0.N, _)

/-- Every block of 400 rows is some point's. -/
theorem idx_onto : ∀ q : Fin 25, ∃ t : Fin cfg0.N, win0_6.index t = ![q.val, 0] :=
  (by decide +kernel : ∀ q : Fin 25, ∃ t : Fin grid0.N, win0_6.index t = ![q.val, 0])

variable (c : Dev nD) (t : Fin cfg0.N)

/-- The adjacency block holds rows `400·t + r` of the adjacency matrix. -/
theorem adj_block (r : Fin 400) (k : Fin 10000) :
    iblk m c 0 t (ix2 r k) = (m ((c : Thread nD τ).loc main_arg1)) (ix2 (row ⟨t.val, lt25 t⟩ r) k) := by
  obtain ⟨e0, e1, -⟩ := idx_facts t
  show V m c main_arg1 (((cfg0.win 0).blk t).view.emb (ix2 r k)) = _
  rw [V_main_arg1]
  refine congrArg _ (funext fun a => Fin.ext ?_)
  match a with
  | ⟨0, _⟩ => show win0_0.index t (0 : Fin 2) * 400 + 1 * r.val = t.val * 400 + r.val; omega
  | ⟨1, _⟩ => show win0_0.index t (1 : Fin 2) * 10000 + 1 * k.val = k.val; omega

/-- The feature block is the whole feature matrix. -/
theorem x_block (k : Fin 10000) (j : Fin 256) : iblk m c 1 t (ix2 k j) = (m ((c : Thread nD τ).loc main_arg0)) (ix2 k j) := by
  obtain ⟨-, -, e0, e1, -⟩ := idx_facts t
  show V m c main_arg0 (((cfg0.win 1).blk t).view.emb (ix2 k j)) = _
  rw [V_main_arg0]
  refine congrArg _ (funext fun a => Fin.ext ?_)
  match a with
  | ⟨0, _⟩ => show win0_1.index t (0 : Fin 2) * 10000 + 1 * k.val = k.val; omega
  | ⟨1, _⟩ => show win0_1.index t (1 : Fin 2) * 256 + 1 * j.val = j.val; omega

/-- The rows the body reads at its computed offset are rows `400·t + r` of the feature matrix. -/
theorem x_rows (r : Fin 400) (j : Fin 256) :
    View.ld (iblk m c 1 t) (Rect.unit (s := S10000x256) (k0_off1 (grid0.coords t)) S400x256.size (k0_off1_inb (grid0.coords t))) (ix2 r j)
      = (m ((c : Thread nD τ).loc main_arg0)) (ix2 (row ⟨t.val, lt25 t⟩ r) j) := by
  obtain ⟨-, -, e0, e1, -, -, -, -, -, -, -, -, -, -, k0, k1⟩ := idx_facts t
  show V m c main_arg0 (((cfg0.win 1).blk t).view.emb
    ((Rect.unit (s := S10000x256) (k0_off1 (grid0.coords t)) S400x256.size (k0_off1_inb (grid0.coords t))).emb (ix2 r j))) = _
  rw [V_main_arg0]
  refine congrArg _ (funext fun a => Fin.ext ?_)
  match a with
  | ⟨0, _⟩ =>
    show win0_1.index t (0 : Fin 2) * 10000 + 1 * (k0_off1 (grid0.coords t) (0 : Fin 2) + 1 * r.val) = t.val * 400 + r.val
    omega
  | ⟨1, _⟩ =>
    show win0_1.index t (1 : Fin 2) * 256 + 1 * (k0_off1 (grid0.coords t) (1 : Fin 2) + 1 * j.val) = j.val
    omega

/-- The first projection block at `(j, o)` is the projection matrix at `(o, j)`. -/
theorem w1_block (j o : Fin 256) : iblk m c 2 t (ix2 j o) = (m ((c : Thread nD τ).loc main_arg2)) (ix2 o (lo j)) := by
  obtain ⟨-, -, -, -, e0, e1, -⟩ := idx_facts t
  have he : ((cfg0.win 2).blk t).view.emb (ix2 j o) = ix2 j o := funext fun a => Fin.ext (by
    match a with
    | ⟨0, _⟩ => show win0_2.index t (0 : Fin 2) * 256 + 1 * j.val = j.val; omega
    | ⟨1, _⟩ => show win0_2.index t (1 : Fin 2) * 256 + 1 * o.val = o.val; omega)
  show V m c main_call0_v1 (((cfg0.win 2).blk t).view.emb (ix2 j o)) = _
  rw [he, V_w1, transpose_ix2_apply]
  exact slice2_axis1_apply 0 _ _ o j (lo j) (Nat.zero_add _).symm

/-- The second projection block at `(j, o)` is the projection matrix at `(o, 256 + j)`. -/
theorem w2_block (j o : Fin 256) : iblk m c 3 t (ix2 j o) = (m ((c : Thread nD τ).loc main_arg2)) (ix2 o (hi j)) := by
  obtain ⟨-, -, -, -, -, -, e0, e1, -⟩ := idx_facts t
  have he : ((cfg0.win 3).blk t).view.emb (ix2 j o) = ix2 j o := funext fun a => Fin.ext (by
    match a with
    | ⟨0, _⟩ => show win0_3.index t (0 : Fin 2) * 256 + 1 * j.val = j.val; omega
    | ⟨1, _⟩ => show win0_3.index t (1 : Fin 2) * 256 + 1 * o.val = o.val; omega)
  show V m c main_call0_v3 (((cfg0.win 3).blk t).view.emb (ix2 j o)) = _
  rw [he, V_w2, transpose_ix2_apply]
  exact slice2_axis1_apply 256 _ _ o j (hi j) rfl

/-- The classifier block at `(o, k)` is the classifier matrix at `(k, o)`. -/
theorem wm_block (o : Fin 256) (k : Fin 64) : iblk m c 4 t (ix2 o k) = (m ((c : Thread nD τ).loc main_arg3)) (ix2 k o) := by
  obtain ⟨-, -, -, -, -, -, -, -, e0, e1, -⟩ := idx_facts t
  have he : ((cfg0.win 4).blk t).view.emb (ix2 o k) = ix2 o k := funext fun a => Fin.ext (by
    match a with
    | ⟨0, _⟩ => show win0_4.index t (0 : Fin 2) * 256 + 1 * o.val = o.val; omega
    | ⟨1, _⟩ => show win0_4.index t (1 : Fin 2) * 64 + 1 * k.val = k.val; omega)
  show V m c main_call0_v4 (((cfg0.win 4).blk t).view.emb (ix2 o k)) = _
  rw [he, V_wm, transpose_ix2_apply]

/-- The bias block at `(0, k)` is the bias at `k`. -/
theorem b_block (k : Fin 64) : iblk m c 5 t (ix2 (0 : Fin 1) k) = (m ((c : Thread nD τ).loc main_arg4)) (ix1 k) := by
  obtain ⟨-, -, -, -, -, -, -, -, -, -, e0, e1, -⟩ := idx_facts t
  have he : ((cfg0.win 5).blk t).view.emb (ix2 (0 : Fin 1) k) = ix2 (0 : Fin 1) k := funext fun a => Fin.ext (by
    match a with
    | ⟨0, _⟩ => show win0_5.index t (0 : Fin 2) * 1 + 1 * 0 = 0; omega
    | ⟨1, _⟩ => show win0_5.index t (1 : Fin 2) * 64 + 1 * k.val = k.val; omega)
  show V m c main_call0_v5 (((cfg0.win 5).blk t).view.emb (ix2 (0 : Fin 1) k)) = _
  rw [he, V_b, shapeCast_a_1a_apply]

/-! ## The result array -/

/-- The layer's result of the arguments as launched. -/
abbrev result (c : Dev nD) : S10000x64.Idx → EReal :=
  sage (m ((c : Thread nD τ).loc main_arg0)) (m ((c : Thread nD τ).loc main_arg1)) (m ((c : Thread nD τ).loc main_arg2)) (m ((c : Thread nD τ).loc main_arg3)) (m ((c : Thread nD τ).loc main_arg4))

/-- What point `t` writes back is block `t` of the layer's result. -/
theorem flushed_eq : (dats m 0 c).flushed 6 t = ((cfg0.win 6).blk t).view.read (Elt Ideal) (result m c) := by
  rw [Value.flushed6_A, out_A]
  obtain ⟨-, -, -, -, -, -, -, -, -, -, -, -, e0, e1, -⟩ := idx_facts t
  funext y
  obtain ⟨r, k, rfl⟩ : ∃ (r : Fin 400) (k : Fin 64), y = ix2 r k := ⟨y 0, y 1, eq_ix2 y⟩
  have hemb : ((cfg0.win 6).blk t).view.emb (ix2 r k) = ix2 (row ⟨t.val, lt25 t⟩ r) k := funext fun a => Fin.ext (by
    match a with
    | ⟨0, _⟩ => show win0_6.index t (0 : Fin 2) * 400 + 1 * r.val = t.val * 400 + r.val; omega
    | ⟨1, _⟩ => show win0_6.index t (1 : Fin 2) * 64 + 1 * k.val = k.val; omega)
  show k0_pay1 (F := Ideal) (iblk m c 0 t) (iblk m c 1 t)
      (View.ld (iblk m c 1 t) (Rect.unit (s := S10000x256) (k0_off1 (grid0.coords t)) S400x256.size (k0_off1_inb (grid0.coords t))))
      (iblk m c 2 t) (iblk m c 3 t) (iblk m c 4 t) (iblk m c 5 t) (ix2 r k)
    = result m c (((cfg0.win 6).blk t).view.emb (ix2 r k))
  rw [hemb]
  exact payload_eq_sage (iblk m c 0 t) (iblk m c 1 t)
    (View.ld (iblk m c 1 t) (Rect.unit (s := S10000x256) (k0_off1 (grid0.coords t)) S400x256.size (k0_off1_inb (grid0.coords t))))
    (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) ⟨t.val, lt25 t⟩
    (adj_block m c t) (x_block m c t) (x_rows m c t) (w1_block m c t) (w2_block m c t) (wm_block m c t) (b_block m c t) r k

/-- An index of the result array is in point `t`'s block iff each coordinate is in the block's range on its axis. -/
theorem mem_blk (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v0).slice (win0_6.rect t)).set ↔ _
  rw [View.set_slice_whole, Rect.mem_set_unit]
  exact Iff.rfl

/-- Row `i` is in the block of point `i / 400`. -/
theorem cover (i : S10000x64.Idx) : ∃ t : Fin cfg0.N, (cfg0.win 6).flush t = true ∧ i ∈ ((cfg0.win 6).blk t).view.set := by
  have hi0 : (i 0).val < 10000 := (i 0).isLt
  have hi1 : (i 1).val < 64 := (i 1).isLt
  obtain ⟨t, ht⟩ := idx_onto ⟨(i 0).val / 400, by omega⟩
  have q0 : win0_6.index t (0 : Fin 2) = (i 0).val / 400 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 64 ≤ (i 1).val ∧ (i 1).val < win0_6.index t (1 : Fin 2) * 64 + 64; omega

/-- After the run the result array is the layer's result of the arguments. -/
theorem final : (dats m 0 c).arrAt 6 cfg0.N = result m c :=
  (dats m 0 c).arrAt_eq_of_cover 6 (result m c) (fun t _ => flushed_eq m c t) cover

/-- The kernel's run with its result array named: the layer's result of the arguments, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.RefSage.lean ====
/-
  The reference program computes `Cert.Sage.sage` of its arguments, index by index.

  Read one host operation at a time.  The degree column is the row sum of the adjacency matrix from the initial value
  `0.0`, and `0 + s = s`; the aggregate is the matrix product of the adjacency matrix and the features, divided entry by
  entry by the degree-plus-one column repeated across the 256 features.  The reference then joins the node features and
  the aggregate into rows of 512 and contracts each row with the transposed projection matrix: position `k < 256` of the
  joined row is feature `k` of the node, position `256 + j` is feature `j` of the aggregate, and the transposed
  projection at `(k, o)` is the projection at `(o, k)`, so the contraction over 512 positions is the two half sums of
  `Cert.Sage.hidden` (`Cert.Sage.sum_halves`).  The rectifier is a maximum with a repeated `0.0`, the classifier a product
  with the transposed classifier matrix, and the bias a vector repeated over the rows.
-/
import proofs.«178826_g3221225472129_cont_8to1_b_1778_23_alg».proof.Proof.Gen.ReferenceIdeal.Read
import proofs.«178826_g3221225472129_cont_8to1_b_1778_23_alg».proof.Proof.SageSpec
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open Cert.Sage

variable (x0 : (⟨S10000x256, .f32⟩ : BufTy).Contents (Elt Ideal)) (x1 : (⟨S10000x10000, .f32⟩ : BufTy).Contents (Elt Ideal))
  (x2 : (⟨S256x512, .f32⟩ : BufTy).Contents (Elt Ideal)) (x3 : (⟨S64x256, .f32⟩ : BufTy).Contents (Elt Ideal))
  (x4 : (⟨S64, .f32⟩ : BufTy).Contents (Elt Ideal))

/-- The degree-plus-one column at row `p`. -/
theorem degree_at (p : Fin 10000) (u : Fin 1) : val_main_v4 (F := Ideal) x1 (ix2 p u) = degree1 x1 p := by
  rw [val_main_v4_apply, val_main_v1_apply, val_main_v0_apply, val_main_v3_apply, val_main_cst_apply, val_main_cst_0_apply]
  have e : ∀ k : Fin 10000, idx_main_v0 (idx_main_v1 (ix2 p u)) k = ix2 p k := fun k =>
    funext fun a => by match a with | ⟨0, _⟩ => rfl | ⟨1, _⟩ => rfl
  simp only [e]
  show (Ideal.ofBits .f32 0x00000000#32 + ∑ k : Fin 10000, x1 (ix2 p k)) + Ideal.ofBits .f32 0x3F800000#32 = _
  rw [Ideal.ofBits_zero_f32, zero_add]
  rfl

/-- The aggregated neighbourhood at `(p, j)`. -/
theorem neigh_at (p : Fin 10000) (j : Fin 256) : val_main_v6 (F := Ideal) x0 x1 (ix2 p j) = neigh x0 x1 p j := by
  rw [val_main_v6_apply, val_main_v2_apply, val_main_v5_apply]
  have e5 : idx_main_v5 (ix2 p j) = ix2 p (0 : Fin 1) := funext fun a => by match a with | ⟨0, _⟩ => rfl | ⟨1, _⟩ => rfl
  have el : ∀ k : Fin 10000, lidx_main_v2 (ix2 p j) k = ix2 p k := fun k =>
    funext fun a => by match a with | ⟨0, _⟩ => rfl | ⟨1, _⟩ => rfl
  have er : ∀ k : Fin 10000, ridx_main_v2 (ix2 p j) k = ix2 k j := fun k =>
    funext fun a => by match a with | ⟨0, _⟩ => rfl | ⟨1, _⟩ => rfl
  rw [e5, degree_at]
  simp only [el, er]
  rfl

/-- The joined row at a position of its first half is the node's own feature. -/
theorem joined_lo (p : Fin 10000) (j : Fin 256) : val_main_v7 (F := Ideal) x0 x1 (ix2 p (lo j)) = x0 (ix2 p j) := by
  unfold val_main_v7
  exact concatenate_pair_apply_left (1 : Fin 2) x0 (val_main_v6 (F := Ideal) x0 x1) concatenates_S10000x256_S10000x256_S10000x512_d1
    (ix2 p (lo j)) rfl (ix2 p j) (fun a => by match a with | ⟨0, _⟩ => rfl | ⟨1, _⟩ => rfl)

/-- The joined row at a position of its second half is the aggregate's feature. -/
theorem joined_hi (p : Fin 10000) (j : Fin 256) : val_main_v7 (F := Ideal) x0 x1 (ix2 p (hi j)) = neigh x0 x1 p j := by
  unfold val_main_v7
  refine (concatenate_pair_apply_right (1 : Fin 2) x0 (val_main_v6 (F := Ideal) x0 x1) concatenates_S10000x256_S10000x256_S10000x512_d1
    (ix2 p (hi j)) rfl rfl (ix2 p j) (fun a ha => by
      match a with
      | ⟨0, _⟩ => rfl
      | ⟨1, _⟩ => exact absurd rfl ha) (by show j.val + 256 = 256 + j.val; omega)).trans ?_
  exact neigh_at x0 x1 p j

/-- The hidden unit at `(p, o)`. -/
theorem hidden_at (p : Fin 10000) (o : Fin 256) : val_main_v10 (F := Ideal) x0 x1 x2 (ix2 p o) = hidden x0 x1 x2 p o := by
  rw [val_main_v10_apply, val_main_v9_apply, val_main_call0_v0_apply, val_main_call0_cst_apply, sum_halves]
  have el : ∀ k : Fin 512, lidx_main_v9 (ix2 p o) k = ix2 p k := fun k =>
    funext fun a => by match a with | ⟨0, _⟩ => rfl | ⟨1, _⟩ => rfl
  have er : ∀ k : Fin 512, idx_main_v8 (ridx_main_v9 (ix2 p o) k) = ix2 o k := fun k =>
    funext fun a => by match a with | ⟨0, _⟩ => rfl | ⟨1, _⟩ => rfl
  simp only [el, val_main_v8_apply, er, joined_lo, joined_hi]
  rfl

/-- The reference's result is the layer's function of the arguments. -/
theorem result_eq : val_main_v15 (F := Ideal) x0 x1 x2 x3 x4 = sage x0 x1 x2 x3 x4 := by
  funext i
  obtain ⟨p, c, rfl⟩ : ∃ (p : Fin 10000) (c : Fin 64), i = ix2 p c := ⟨i 0, i 1, eq_ix2 i⟩
  rw [val_main_v15_apply, val_main_v12_apply, val_main_v14_apply, val_main_v13_apply, sage_apply]
  have el : ∀ k : Fin 256, lidx_main_v12 (ix2 p c) k = ix2 p k := fun k =>
    funext fun a => by match a with | ⟨0, _⟩ => rfl | ⟨1, _⟩ => rfl
  have er : ∀ k : Fin 256, idx_main_v11 (ridx_main_v12 (ix2 p c) k) = ix2 c k := fun k =>
    funext fun a => by match a with | ⟨0, _⟩ => rfl | ⟨1, _⟩ => rfl
  have eb : idx_main_v13 (idx_main_v14 (ix2 p c)) = ix1 c := funext fun a => by match a with | ⟨0, _⟩ => rfl
  simp only [el, val_main_v11_apply, er, eb, hidden_at]
  rfl

end Cert.ReferenceIdeal.RefValue

end
-- ==== Proof.lean ====
/-
  A GraphSAGE layer with a linear classifier, computed by a row-blocked kernel and by a plain array program: the two
  results are equal on the extended reals.

  Both programs compute, for node `p` and class `c`,
    `Σ_o max(Σ_j x(p, j)·Ws(o, j) + Σ_j neigh(p, j)·Ws(o, 256 + j), 0) · Wm(c, o) + b(c)`,
    `neigh(p, j) = (Σ_k adj(p, k)·x(k, j)) / (Σ_k adj(p, k) + 1)`
  (`Cert.Sage.sage`, Proof/SageSpec.lean).  The kernel works on 25 blocks of 400 rows: each grid point sums its rows of
  the adjacency matrix, multiplies them with the features, divides, applies the two transposed halves of the
  projection matrix separately and adds the two products, rectifies, applies the transposed classifier matrix and adds
  the bias (Proof/BodyValue.lean: its store at an entry; Proof/BlockRun.lean: the blocks hold the arguments' entries
  of those rows, and the 25 output blocks tile the result).  The reference joins each node's features and aggregate
  into one row of 512 and contracts it with the whole transposed projection matrix (Proof/RefSage.lean).  The two differ
  only in how the sum over the projection's 512 inputs is grouped — one sum, or the sum of its two halves — and a
  finite sum in a commutative monoid may be grouped either way, also when entries are infinite; so the equality holds
  for all extended-real inputs and the precondition that the inputs are finite is not used.  Matrix products, row sums
  and changes of float format read the same on both sides at the ideal instance, and both sides divide (neither
  multiplies by a reciprocal).

  The three frame claims are the generated runs of the three programs; nothing was rewritten when the kernel was
  idealized, so that claim is `True`.
-/
import proofs.«178826_g3221225472129_cont_8to1_b_1778_23_alg».proof.Defs
import proofs.«178826_g3221225472129_cont_8to1_b_1778_23_alg».proof.Proof.Gen.Kernel
import proofs.«178826_g3221225472129_cont_8to1_b_1778_23_alg».proof.Proof.Gen.Kernel.Frame
import proofs.«178826_g3221225472129_cont_8to1_b_1778_23_alg».proof.Proof.Gen.KernelIdeal
import proofs.«178826_g3221225472129_cont_8to1_b_1778_23_alg».proof.Proof.Gen.KernelIdeal.Frame
import proofs.«178826_g3221225472129_cont_8to1_b_1778_23_alg».proof.Proof.Gen.ReferenceIdeal
import proofs.«178826_g3221225472129_cont_8to1_b_1778_23_alg».proof.Proof.Gen.Pre_finite_inputs
import proofs.«178826_g3221225472129_cont_8to1_b_1778_23_alg».proof.Proof.Gen.KernelIdeal.Value
import proofs.«178826_g3221225472129_cont_8to1_b_1778_23_alg».proof.Proof.Gen.ReferenceIdeal.Run
import proofs.«178826_g3221225472129_cont_8to1_b_1778_23_alg».proof.Proof.Gen.ReferenceIdeal.Read
import proofs.«178826_g3221225472129_cont_8to1_b_1778_23_alg».proof.Proof.BlockRun
import proofs.«178826_g3221225472129_cont_8to1_b_1778_23_alg».proof.Proof.RefSage
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the five arguments, the kernel's result array and the reference's are both the layer's
    function of the arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
